-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S2x200000 : Shape := ⟨2, ![2, 200000]⟩
abbrev S512x256 : Shape := ⟨2, ![512, 256]⟩
abbrev S256x256 : Shape := ⟨2, ![256, 256]⟩
abbrev S512x2 : Shape := ⟨2, ![512, 2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S512x2 : S_.BroadcastsInDim S512x2 (![] : Fin 0 → Fin S512x2.rank)
  reducesTo_S512x2_S_d0_1 : S512x2.ReducesTo [0, 1] S_

variable [Facts]

def fn_part1 {F : FTy → Type} [FloatOps F] (main_arg6 : FVec F S512x2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S512x2 .f32 := Host.absf main_arg6
  let main_cst_6 : FVec F S_ .f32 := constant S_ .f32 0x7F800000#32
  let main_v20 : FVec F S512x2 .f32 := broadcastInDim S512x2 ![] bcast_S_S512x2 main_cst_6
  let main_v21 : IVec S512x2 1 := cmpf .olt main_v19 main_v20
  let main_c_7 : IVec S_ 1 := constantI S_ 1 1#1
  let main_v22 : IVec S_ 1 := (fun x v => Host.reduce IntOp.andi x v reducesTo_S512x2_S_d0_1 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S800000 .f32) (main_arg3 : IVec S2x200000 32) (main_arg4 : FVec F S512x256 .f32) (main_arg5 : FVec F S256x256 .f32) (main_arg6 : FVec F S512x2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S2x200000 : Shape := ⟨2, ![2, 200000]⟩
abbrev S512x256 : Shape := ⟨2, ![512, 256]⟩
abbrev S256x256 : Shape := ⟨2, ![256, 256]⟩
abbrev S512x2 : Shape := ⟨2, ![512, 2]⟩
abbrev S1x800000 : Shape := ⟨2, ![1, 800000]⟩
abbrev S50000x256 : Shape := ⟨2, ![50000, 256]⟩
abbrev S2000x512 : Shape := ⟨2, ![2000, 512]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S256x2 : Shape := ⟨2, ![256, 2]⟩
abbrev S200000x2 : Shape := ⟨2, ![200000, 2]⟩
abbrev S2000x2 : Shape := ⟨2, ![2000, 2]⟩

abbrev nBuf : Space → Nat
  | .hbm => 75
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S2x200000, .i32⟩
  | .hbm, ⟨4, _⟩ => ⟨S512x256, .f32⟩
  | .hbm, ⟨5, _⟩ => ⟨S256x256, .f32⟩
  | .hbm, ⟨6, _⟩ => ⟨S512x2, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S800000x256, .f32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S1x200000, .i32⟩
  | .hbm, ⟨49, _⟩ => ⟨S200000, .i32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000x256, .f32⟩
  | .hbm, ⟨59, _⟩ => ⟨S1x200000, .i32⟩
  | .hbm, ⟨60, _⟩ => ⟨S200000, .i32⟩
  | .hbm, ⟨61, _⟩ => ⟨S_, .i32⟩
  | .hbm, ⟨62, _⟩ => ⟨S200000, .i32⟩
  | .hbm, ⟨63, _⟩ => ⟨S200000, .i1⟩
  | .hbm, ⟨64, _⟩ => ⟨S_, .i32⟩
  | .hbm, ⟨65, _⟩ => ⟨S200000, .i32⟩
  | .hbm, ⟨66, _⟩ => ⟨S200000, .i32⟩
  | .hbm, ⟨67, _⟩ => ⟨S200000, .i32⟩
  | .hbm, ⟨68, _⟩ => ⟨S200000x1, .i32⟩
  | .hbm, ⟨69, _⟩ => ⟨S200000x256, .f32⟩
  | .hbm, ⟨70, _⟩ => ⟨S256x2, .f32⟩
  | .hbm, ⟨71, _⟩ => ⟨S256x2, .f32⟩
  | .hbm, ⟨72, _⟩ => ⟨S200000x2, .f32⟩
  | .hbm, ⟨73, _⟩ => ⟨S200000x2, .f32⟩
  | .hbm, ⟨74, _⟩ => ⟨S200000x2, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x2, .f32⟩
  | .local _ .vmem, ⟨13, _⟩ => ⟨S2000x2, .f32⟩
  | .local _ .vmem, ⟨14, _⟩ => ⟨S2000x2, .f32⟩
  | .local _ .vmem, ⟨15, _⟩ => ⟨S2000x256, .f32⟩
  | .local _ .vmem, ⟨16, _⟩ => ⟨S2000x256, .f32⟩
  | .local _ .vmem, ⟨17, _⟩ => ⟨S256x2, .f32⟩
  | .local _ .vmem, ⟨18, _⟩ => ⟨S2000x2, .f32⟩
  | .local _ .vmem, ⟨19, _⟩ => ⟨S2000x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  slices_S512x2_S256x2_0_0 : S512x2.Slices ![0, 0] S256x2
  slices_S512x2_S256x2_256_0 : S512x2.Slices ![256, 0] S256x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2000x2_S2000x2_0_0 : ∀ a, (![0, 0] : Fin 2 → Nat) a + S2000x2.size a ≤ S2000x2.size a
  h_S2000x2 : 0 < S2000x2.numel
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  gather_S50000x256_S200000x1_S200000x256_1_0_n_n_0_1_1256_wf : GatherDims.WF S50000x256 S200000x1 S200000x256 [1] [0] [] [0] [] 1 ![1, 256]
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x2.size a ≤ S256x2.size a
  hwx2_1 : ∀ i : grid2.Coords, EltTy.bits .f32 = 32 ∨ (Rect.block (s := S256x2) S256x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S200000x2.size a
  hwx2_2 : ∀ i : grid2.Coords, EltTy.bits .f32 = 32 ∨ (Rect.block (s := S200000x2) S2000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x2.size a ≤ S256x2.size a
  hwx3_1 : ∀ i : grid3.Coords, EltTy.bits .f32 = 32 ∨ (Rect.block (s := S256x2) S256x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S200000x2.size a
  hwx3_2 : ∀ i : grid3.Coords, EltTy.bits .f32 = 32 ∨ (Rect.block (s := S200000x2) S2000x2.size (cc3_transform_2 i) (hinb3_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S256x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S256x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S2x200000 : Shape := ⟨2, ![2, 200000]⟩
abbrev S512x256 : Shape := ⟨2, ![512, 256]⟩
abbrev S256x256 : Shape := ⟨2, ![256, 256]⟩
abbrev S512x2 : Shape := ⟨2, ![512, 2]⟩
abbrev S1x800000 : Shape := ⟨2, ![1, 800000]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S200000x512 : Shape := ⟨2, ![200000, 512]⟩
abbrev S200000x2 : Shape := ⟨2, ![200000, 2]⟩

abbrev nBuf : Space → Nat
  | .hbm => 72
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S2x200000, .i32⟩
  | .hbm, ⟨4, _⟩ => ⟨S512x256, .f32⟩
  | .hbm, ⟨5, _⟩ => ⟨S256x256, .f32⟩
  | .hbm, ⟨6, _⟩ => ⟨S512x2, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S800000x256, .f32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S1x200000, .i32⟩
  | .hbm, ⟨49, _⟩ => ⟨S200000, .i32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000x256, .f32⟩
  | .hbm, ⟨59, _⟩ => ⟨S1x200000, .i32⟩
  | .hbm, ⟨60, _⟩ => ⟨S200000, .i32⟩
  | .hbm, ⟨61, _⟩ => ⟨S_, .i32⟩
  | .hbm, ⟨62, _⟩ => ⟨S200000, .i32⟩
  | .hbm, ⟨63, _⟩ => ⟨S200000, .i1⟩
  | .hbm, ⟨64, _⟩ => ⟨S_, .i32⟩
  | .hbm, ⟨65, _⟩ => ⟨S200000, .i32⟩
  | .hbm, ⟨66, _⟩ => ⟨S200000, .i32⟩
  | .hbm, ⟨67, _⟩ => ⟨S200000, .i32⟩
  | .hbm, ⟨68, _⟩ => ⟨S200000x1, .i32⟩
  | .hbm, ⟨69, _⟩ => ⟨S200000x256, .f32⟩
  | .hbm, ⟨70, _⟩ => ⟨S200000x512, .f32⟩
  | .hbm, ⟨71, _⟩ => ⟨S200000x2, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x256_S200000x256_S200000x512_d1 : Shape.Concatenates [S200000x256, S200000x256] S200000x512 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  gather_S50000x256_S200000x1_S200000x256_1_0_n_n_0_1_1256_wf : GatherDims.WF S50000x256 S200000x1 S200000x256 [1] [0] [] [0] [] 1 ![1, 256]
  dot_S200000x512_S512x2_S200000x2_1_0_0_1_n_n_wf : DotDims.WF S200000x512 S512x2 S200000x2 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S200000x512_S512x2_S200000x2_1_0_0_1_n_n : DotDims S200000x512 S512x2 S200000x2 where
  lhsContracting := [1]
  rhsContracting := [0]
  lhsNonContracting := [0]
  rhsNonContracting := [1]
  lhsBatch := []
  rhsBatch := []
  wf := dot_S200000x512_S512x2_S200000x2_1_0_0_1_n_n_wf

class Facts : Prop extends Facts₀ where

variable [Facts]
-- ==== Proof.WholeRun.lean ====
/-
  The idealized kernel's whole run, read at its end. @main is nine segments in order: a stretch of host operations, the
  first pipelined product, two stretches, the second product, a stretch, the two decode products, and the final
  addition. The contents of every buffer at each segment boundary are a fold from the launch memory: a host stretch
  applies its operations, a pipelined region replaces its output array by what its write-backs leave and keeps every
  other buffer. Every weakly fair execution terminates without a fault, and at its end every buffer that lives for the
  whole run holds the last boundary's contents: so any property of the final memory that follows from those contents
  holds of every execution. In particular the result array ends at the last boundary's contents of its buffer and the
  seven argument arrays end as launched.
-/
import proofs.«153874_j86234353369872_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, in a memory where every buffer that lives for
    the whole run holds the last boundary's contents; hence in any `Q` those contents imply. -/
theorem ends_at_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run with the result named: the result array ends at the last boundary's contents of its buffer, every
    argument array as launched. -/
theorem run : θ_run defs (onTc (τ := τ) (main (F := F))) ⟨m, fun _ => 0, ρ⟩ (fun r => ∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  ends_at_last_boundary m ρ fun s h c =>
    ⟨h c _ (mem_uc main_v55 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩

end Cert.KernelIdeal.Whole

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibDotGeneralIdx.lean ====
/-
  The host's matrix product read entry by entry over the extended reals, for any extents: rows by columns
  (`[m, k] · [k, n]`, the entry at `(a, b)` is `∑ c, A (a, c) · B (c, b)`). The dimension numbers are written out
  literally, so a program's own record of them unifies with the statement by unfolding.
-/
import Idealize.ShloMosaic.Lib.ValueIdx
import Idealize.ShloMosaic.PureOps.Ideal.Laws

open scoped BigOperators

noncomputable section

namespace Cert.LibDotGeneralIdx

open Idealize.ShloMosaic Idealize.ShloMosaic.ValueIdx

/-- Rows by columns on the host: the entry at `(a, b)` of an `m × k` by `k × n` product is the sum over the
    contracted coordinate of the products of the two entries. -/
theorem dotGeneral_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B
        (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.LibDotGeneralIdx

end
-- ==== Proof.LibConcatCols.lean ====
/-
  Two matrices with the same number of rows set side by side, read at one entry, for any extents and any entries.

  Joining an [n, k₁] matrix and an [n, k₂] matrix along their columns gives an [n, k] matrix (k = k₁ + k₂) whose row p
  is row p of the first followed by row p of the second: column q < k₁ reads the first matrix at (p, q), and column
  q = k₁ + c reads the second at (p, c).
-/
import Idealize.ShloMosaic.Lib.Pipeline.Value
import Idealize.ShloMosaic.Lib.ValueIdx

namespace Cert.LibConcatCols

open Idealize.ShloMosaic Idealize.ShloMosaic.ValueIdx

variable {α : Type}

/-- A column inside the first piece reads the first piece at the same row and column. -/
theorem concat_cols_left {n k₁ k₂ k : ℕ} (x : (⟨2, ![n, k₁]⟩ : Shape).Idx → α) (y : (⟨2, ![n, k₂]⟩ : Shape).Idx → α)
    (h : Shape.Concatenates [(⟨2, ![n, k₁]⟩ : Shape), (⟨2, ![n, k₂]⟩ : Shape)] ⟨2, ![n, k]⟩ 1)
    (p : Fin n) (q : Fin k) (c : Fin k₁) (hq : q.val = c.val) :
    concatenate ⟨2, ![n, k]⟩ 1 [⟨⟨2, ![n, k₁]⟩, x⟩, ⟨⟨2, ![n, k₂]⟩, y⟩] h (ix2 p q) = x (ix2 p c) :=
  concatenate_pair_apply_left 1 x y h (ix2 p q) rfl (ix2 p c) (fun d => by
    match d with
    | ⟨0, _⟩ => rfl
    | ⟨1, _⟩ => exact hq.symm)

/-- A column past the first piece reads the second piece at the same row, the first piece's width less. -/
theorem concat_cols_right {n k₁ k₂ k : ℕ} (x : (⟨2, ![n, k₁]⟩ : Shape).Idx → α) (y : (⟨2, ![n, k₂]⟩ : Shape).Idx → α)
    (h : Shape.Concatenates [(⟨2, ![n, k₁]⟩ : Shape), (⟨2, ![n, k₂]⟩ : Shape)] ⟨2, ![n, k]⟩ 1)
    (p : Fin n) (q : Fin k) (c : Fin k₂) (hq : q.val = k₁ + c.val) :
    concatenate ⟨2, ![n, k]⟩ 1 [⟨⟨2, ![n, k₁]⟩, x⟩, ⟨⟨2, ![n, k₂]⟩, y⟩] h (ix2 p q) = y (ix2 p c) :=
  concatenate_pair_apply_right 1 x y h (ix2 p q) rfl rfl (ix2 p c) (fun d hd => by
    match d with
    | ⟨0, _⟩ => rfl
    | ⟨1, _⟩ => exact absurd rfl hd) (by
    show c.val + k₁ = q.val
    omega)

end Cert.LibConcatCols
-- ==== Proof.LibMatProd.lean ====
/-
  The product of two matrices of extended reals as ONE function of the two arrays, `mm A B (a, b) = ∑ c, A (a, c) · B (c, b)`,
  for any extents, and the ways a program spells it:

  * a matrix product accumulated into zero, and the host's matrix product, are both `mm` of their operands;
  * a product whose left operand is a band of rows of a taller matrix is, row by row, the product with the taller matrix
    (an entry of a product depends on the left operand only through its own row);
  * against two matrices set side by side, the product's columns are those of the product with the left piece followed
    by those of the product with the right piece (an entry depends on the right operand only through its own column);
  * multiplying on the left does not mix columns: a column of `A · X` is `A` applied to the same column of `X`.

  Only commutativity-free rearrangements are used: no distributivity, so nothing here needs the entries to be finite.
-/
import Idealize.ShloMosaic.Lib.ValueIdx
import Idealize.ShloMosaic.Lib.Pipeline.Value
import Idealize.ShloMosaic.PureOps.Ideal.Laws
import proofs.«153874_j86234353369872_1_alg».proof.Proof.LibMatmulIdx
import proofs.«153874_j86234353369872_1_alg».proof.Proof.LibDotGeneralIdx
import proofs.«153874_j86234353369872_1_alg».proof.Proof.LibConcatCols

open scoped BigOperators

noncomputable section

namespace Cert.LibMatProd

open Idealize.ShloMosaic Idealize.ShloMosaic.ValueIdx

/-- Rows by columns: the entry at `(a, b)` is the sum over `c` of `A (a, c) · B (c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (show Fin m from i 0) c) * B (ix2 c (show Fin n from i 1))

theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product accumulated into the zero array is `mm` of its operands. -/
theorem matmul_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact Cert.LibMatmulIdx.matmul_rc_apply w prec A B a b

/-- The host's product is `mm` of its operands. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (F := Ideal) (⟨[1], [0], [0], [1], [], [], w⟩ : DotDims ⟨2, ![m, k]⟩ ⟨2, ![k, n]⟩ ⟨2, ![m, n]⟩) prec A B
      = mm A B := by
  funext i
  obtain ⟨a, b, rfl⟩ : ∃ (a : Fin m) (b : Fin n), i = ix2 a b := ⟨i 0, i 1, eq_ix2 i⟩
  exact Cert.LibDotGeneralIdx.dotGeneral_rc_apply w prec A B a b

/-- A band of rows: if row `a` of `Ab` is row `p` of `A`, then row `a` of `Ab · B` (accumulated into zero) is row `p`
    of `A · B`. -/
theorem matmul_band_apply {r m k n : ℕ}
    (w : DotDims.WF ⟨2, ![r, k]⟩ ⟨2, ![k, n]⟩ ⟨2, ![r, n]⟩ [1] [0] [0] [1] [] [])
    (prec : Option ContractPrecision) (Ab : FVec Ideal ⟨2, ![r, k]⟩ .f32) (A : (⟨2, ![m, k]⟩ : Shape).Idx → EReal)
    (B : FVec Ideal ⟨2, ![k, n]⟩ .f32) (a : Fin r) (p : Fin m) (b : Fin n)
    (hrow : ∀ c : Fin k, Ab (ix2 a c) = A (ix2 p c)) :
    FloatOps.matmul (⟨[1], [0], [0], [1], [], [], w⟩ : DotDims ⟨2, ![r, k]⟩ ⟨2, ![k, n]⟩ ⟨2, ![r, n]⟩) prec Ab B
        (constant (F := Ideal) ⟨2, ![r, n]⟩ .f32 0x00000000#32) (ix2 a b) = mm A B (ix2 p b) := by
  rw [Cert.LibMatmulIdx.matmul_rc_apply w prec Ab B a b, mm_apply]
  exact Finset.sum_congr rfl fun c _ => by rw [hrow c]

/-- A column of a product only reads that column of the right operand: if column `b'` of `B'` is column `b` of `B`,
    then column `b'` of `A · B'` is column `b` of `A · B`. -/
theorem mm_col_congr {m k n n' : ℕ} (A : (⟨2, ![m, k]⟩ : Shape).Idx → EReal)
    (B : (⟨2, ![k, n]⟩ : Shape).Idx → EReal) (B' : (⟨2, ![k, n']⟩ : Shape).Idx → EReal) (a : Fin m) (b : Fin n) (b' : Fin n')
    (hcol : ∀ c : Fin k, B' (ix2 c b') = B (ix2 c b)) :
    mm A B' (ix2 a b') = mm A B (ix2 a b) := by
  rw [mm_apply, mm_apply]
  exact Finset.sum_congr rfl fun c _ => by rw [hcol c]

/-- Against two matrices side by side, a column inside the left piece is that column of the product with the left piece. -/
theorem mm_concat_left {m k n₁ n₂ n : ℕ} (A : (⟨2, ![m, k]⟩ : Shape).Idx → EReal)
    (X : (⟨2, ![k, n₁]⟩ : Shape).Idx → EReal) (Y : (⟨2, ![k, n₂]⟩ : Shape).Idx → EReal)
    (h : Shape.Concatenates [(⟨2, ![k, n₁]⟩ : Shape), (⟨2, ![k, n₂]⟩ : Shape)] ⟨2, ![k, n]⟩ 1)
    (a : Fin m) (q : Fin n) (b : Fin n₁) (hq : q.val = b.val) :
    mm A (concatenate ⟨2, ![k, n]⟩ 1 [⟨⟨2, ![k, n₁]⟩, X⟩, ⟨⟨2, ![k, n₂]⟩, Y⟩] h) (ix2 a q) = mm A X (ix2 a b) :=
  mm_col_congr A X _ a b q fun c => Cert.LibConcatCols.concat_cols_left X Y h c q b hq

/-- Against two matrices side by side, a column past the left piece is a column of the product with the right piece. -/
theorem mm_concat_right {m k n₁ n₂ n : ℕ} (A : (⟨2, ![m, k]⟩ : Shape).Idx → EReal)
    (X : (⟨2, ![k, n₁]⟩ : Shape).Idx → EReal) (Y : (⟨2, ![k, n₂]⟩ : Shape).Idx → EReal)
    (h : Shape.Concatenates [(⟨2, ![k, n₁]⟩ : Shape), (⟨2, ![k, n₂]⟩ : Shape)] ⟨2, ![k, n]⟩ 1)
    (a : Fin m) (q : Fin n) (b : Fin n₂) (hq : q.val = n₁ + b.val) :
    mm A (concatenate ⟨2, ![k, n]⟩ 1 [⟨⟨2, ![k, n₁]⟩, X⟩, ⟨⟨2, ![k, n₂]⟩, Y⟩] h) (ix2 a q) = mm A Y (ix2 a b) :=
  mm_col_congr A Y _ a b q fun c => Cert.LibConcatCols.concat_cols_right X Y h c q b hq

/-- Multiplying on the left does not mix columns: column `b'` of `A · (X · B')` is column `b` of `A · (X · B)` when column
    `b'` of `B'` is column `b` of `B`. -/
theorem mm_mm_col_congr {m k l n n' : ℕ} (A : (⟨2, ![m, k]⟩ : Shape).Idx → EReal) (X : (⟨2, ![k, l]⟩ : Shape).Idx → EReal)
    (B : (⟨2, ![l, n]⟩ : Shape).Idx → EReal) (B' : (⟨2, ![l, n']⟩ : Shape).Idx → EReal) (a : Fin m) (b : Fin n) (b' : Fin n')
    (hcol : ∀ c : Fin l, B' (ix2 c b') = B (ix2 c b)) :
    mm A (mm X B') (ix2 a b') = mm A (mm X B) (ix2 a b) :=
  mm_col_congr A (mm X B) (mm X B') a b b' fun c => mm_col_congr X B B' c b b' hcol

end Cert.LibMatProd

end
-- ==== Proof.Stages.lean ====
/-
  The host stretches of the kernel's @main, each named as one function of the buffers it reads, at the extended reals.

  * `tail e` / `head e` : the two rows of the edge table `e` (tails and heads of the 800000 edges), as vectors;
    `firstEnd p` / `secondEnd p` : the two rows of the table `p` of 200000 node pairs.
  * `aggregate h s d w` : the weighted neighbourhood sum. Edge `j` carries row `s j` of `h` (a negative index counted
    from the end, as the source's array indexing does) scaled by the weight `w j`, and the messages are added into the rows `d j` of a
    zero array.
  * `clampBelow z` : the entrywise maximum with zero.
  * `rowsAt z q` : the rows of `z` at the node indices `q` (negative indices counted from the end).
  * `upperRows Wl` / `lowerRows Wl` : rows 0–255 and rows 256–511 of the 512-row decode matrix.

  `kernelValue` composes them with the product `mm` of two matrices in the order the kernel computes: two rounds of
  product-then-aggregate with a clamp between, then the sum of the two half-width decode products.
-/
import proofs.«153874_j86234353369872_1_alg».proof.Proof.Gen.KernelIdeal
import proofs.«153874_j86234353369872_1_alg».proof.Proof.LibMatProd
import Idealize.ShloMosaic.PureOps.Ideal

noncomputable section

namespace Cert.KernelIdeal.Stages

open Cert.KernelIdeal Cert.KernelIdeal.Facts₀ Idealize.ShloMosaic Idealize.ShloMosaic.TcCoe Cert.LibMatProd

/-- The tails of the edges: row 0 of the edge table. -/
def tail (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The heads of the edges: row 1 of the edge table. -/
def head (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The first endpoints of the node pairs: row 0 of the pair table. -/
def firstEnd (p : (⟨S2x200000, .i32⟩ : BufTy).Contents (Elt Ideal)) : (⟨S200000, .i32⟩ : BufTy).Contents (Elt Ideal) :=
  shapeCast S200000 (extractStridedSlice S1x200000 ![0, 0] p slices_S2x200000_S1x200000_0_0) shapeCasts_S1x200000_S200000

/-- The second endpoints of the node pairs: row 1 of the pair table. -/
def secondEnd (p : (⟨S2x200000, .i32⟩ : BufTy).Contents (Elt Ideal)) : (⟨S200000, .i32⟩ : BufTy).Contents (Elt Ideal) :=
  shapeCast S200000 (extractStridedSlice S1x200000 ![1, 0] p slices_S2x200000_S1x200000_1_0) shapeCasts_S1x200000_S200000

/-- The weighted neighbourhood sum: the rows `s j` of `h` scaled by `w j`, added into the rows `d j` of a zero array. -/
def aggregate (h : (⟨S50000x256, .f32⟩ : BufTy).Contents (Elt Ideal)) (s d : (⟨S800000, .i32⟩ : BufTy).Contents (Elt Ideal)) (w : (⟨S800000, .f32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (mulf (F := Ideal)
      (broadcastInDim S800000x256 ![0, 1] bcast_S800000x1_S800000x256_0_1
        (broadcastInDim S800000x1 ![0] bcast_S800000_S800000x1_0 w))
      (Host.gather gather_S50000x256_S800000x1_S800000x256_1_0_n_n_0_1_1256 h
        (broadcastInDim S800000x1 ![0] bcast_S800000_S800000x1_0
          (select
            (cmpi .slt s (broadcastInDim S800000 ![] bcast_S_S800000 (constantI S_ 32 0#32)))
            (addi s (broadcastInDim S800000 ![] bcast_S_S800000 (constantI S_ 32 50000#32)))
            s))))

/-- The entrywise maximum with zero. -/
def clampBelow (z : (⟨S50000x256, .f32⟩ : BufTy).Contents (Elt Ideal)) : (⟨S50000x256, .f32⟩ : BufTy).Contents (Elt Ideal) :=
  maximumf (F := Ideal) z (broadcastInDim S50000x256 ![] bcast_S_S50000x256 (constant (F := Ideal) S_ .f32 0x00000000#32))

/-- The rows of `z` at the node indices `q`. -/
def rowsAt (z : (⟨S50000x256, .f32⟩ : BufTy).Contents (Elt Ideal)) (q : (⟨S200000, .i32⟩ : BufTy).Contents (Elt Ideal)) : (⟨S200000x256, .f32⟩ : BufTy).Contents (Elt Ideal) :=
  Host.gather gather_S50000x256_S200000x1_S200000x256_1_0_n_n_0_1_1256 z
    (broadcastInDim S200000x1 ![0] bcast_S200000_S200000x1_0
      (select
        (cmpi .slt q (broadcastInDim S200000 ![] bcast_S_S200000 (constantI S_ 32 0#32)))
        (addi q (broadcastInDim S200000 ![] bcast_S_S200000 (constantI S_ 32 50000#32)))
        q))

/-- Rows 0–255 of the decode matrix. -/
def upperRows (Wl : (⟨S512x2, .f32⟩ : BufTy).Contents (Elt Ideal)) : (⟨S256x2, .f32⟩ : BufTy).Contents (Elt Ideal) :=
  extractStridedSlice S256x2 ![0, 0] Wl slices_S512x2_S256x2_0_0

/-- Rows 256–511 of the decode matrix. -/
def lowerRows (Wl : (⟨S512x2, .f32⟩ : BufTy).Contents (Elt Ideal)) : (⟨S256x2, .f32⟩ : BufTy).Contents (Elt Ideal) :=
  extractStridedSlice S256x2 ![256, 0] Wl slices_S512x2_S256x2_256_0

/-- The node embedding after the two rounds: product with `W1`, aggregate, clamp, product with `W2`, aggregate. -/
def embedding (x : (⟨S50000x512, .f32⟩ : BufTy).Contents (Elt Ideal)) (e : (⟨S2x800000, .i32⟩ : BufTy).Contents (Elt Ideal)) (w : (⟨S800000, .f32⟩ : BufTy).Contents (Elt Ideal))
    (W1 : (⟨S512x256, .f32⟩ : BufTy).Contents (Elt Ideal)) (W2 : (⟨S256x256, .f32⟩ : BufTy).Contents (Elt Ideal)) : (⟨S50000x256, .f32⟩ : BufTy).Contents (Elt Ideal) :=
  aggregate (mm (clampBelow (aggregate (mm x W1) (tail e) (head e) w)) W2) (tail e) (head e) w

/-- What the kernel computes: the two endpoint rows of the embedding, each against its half of the decode matrix,
    added. -/
def kernelValue (x : (⟨S50000x512, .f32⟩ : BufTy).Contents (Elt Ideal)) (e : (⟨S2x800000, .i32⟩ : BufTy).Contents (Elt Ideal)) (w : (⟨S800000, .f32⟩ : BufTy).Contents (Elt Ideal))
    (p : (⟨S2x200000, .i32⟩ : BufTy).Contents (Elt Ideal)) (W1 : (⟨S512x256, .f32⟩ : BufTy).Contents (Elt Ideal)) (W2 : (⟨S256x256, .f32⟩ : BufTy).Contents (Elt Ideal))
    (Wl : (⟨S512x2, .f32⟩ : BufTy).Contents (Elt Ideal)) : (⟨S200000x2, .f32⟩ : BufTy).Contents (Elt Ideal) :=
  addf (F := Ideal) (φ := .f32) (mm (rowsAt (embedding x e w W1 W2) (firstEnd p)) (upperRows Wl))
    (mm (rowsAt (embedding x e w W1 W2) (secondEnd p)) (lowerRows Wl))

end Cert.KernelIdeal.Stages

end
-- ==== Proof.Band0.lean ====
/-
  Pipelined product number 0. The 50000-row left operand is cut into 25 bands of 2000 rows. Grid point `t` loads band `t`
  whole, loads the whole 512×256 right operand, multiplies the two into a zero accumulator and writes the result back as
  band `t` of the 50000×256 output. A row of a product depends on the left operand through that row alone, so what point `t`
  writes is band `t` of the product of the two whole arrays; the 25 bands cover every row, so the region leaves in its
  output array the whole product `mm A B` of the arrays `A`, `B` it found in its two input arrays. Changing the float
  format of the operands is the identity on the extended reals.
-/
import proofs.«153874_j86234353369872_1_alg».proof.Proof.Gen.KernelIdeal.Frame
import proofs.«153874_j86234353369872_1_alg».proof.Proof.LibMatProd
import Idealize.ShloMosaic.Lib.Pipeline.Value
import Idealize.ShloMosaic.Lib.ValueIdx

set_option maxRecDepth 16384

noncomputable section

namespace Cert.KernelIdeal.Band0

open Cert.KernelIdeal Cert.KernelIdeal.Gen Idealize.ShloMosaic Idealize.ShloMosaic.TcCoe Idealize.ShloMosaic.ValueIdx
open Idealize.SL.Sem Cert.LibMatProd
open Idealize.ShloMosaic.Pipeline (Dat)

variable (V : (c : Dev nD) → (b : Ref sig .tc) → Buf (Elt Ideal) ((c : Thread nD τ).loc b))

/-- The body's loads and its store start at the corner of their buffers. -/
theorem corner : (![0, 0] : Fin 2 → Nat) = fun _ => 0 := funext fun a => by fin_cases a <;> rfl

/-- The index maps over the grid: the left operand's and the output's block row is the point, every other block
    coordinate is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of what the body stores: if row `a` of the loaded band is row `p` of `A`, the entry at `(a, b)` is the
    entry at `(p, b)` of the product of `A` with the loaded right operand. -/
theorem stored_apply (x0 : Vec Ideal S2000x512 .f32) (x1 : Vec Ideal S512x256 .f32) (A : S50000x512.Idx → EReal)
    (a : Fin 2000) (p : Fin 50000) (b : Fin 256) (hrow : ∀ k : Fin 512, x0 (ix2 a k) = A (ix2 p k)) :
    k0_pay1 (F := Ideal) x0 x1 (ix2 a b) = mm A x1 (ix2 p b) := by
  unfold k0_pay1
  exact matmul_band_apply dot_S2000x512_S512x256_S2000x256_1_0_0_1_n_n_wf none x0 A x1 a p b hrow

/-- What point `t` writes back is block `t` of the product of the two arrays the region found. -/
theorem flushed_eq (c : Dev nD) (t : Fin cfg0.N) :
    (dat0 V c).flushed 2 t
      = ((cfg0.win 2).blk t).view.read (Elt Ideal) (mm (V c main_arg0) (V c main_arg4)) := by
  show (cfg0.win 2).cut (grid0.coords t) ((dat0 V c).after 2 t) = _
  rw [after0_2]
  unfold out0_2
  rw [View.canon_unit_zero corner]
  simp only [View.ld_unit_zero (S := S2000x512) corner, View.ld_unit_zero (S := S512x256) corner]
  obtain ⟨e0, e1, e2, e3, e4, e5⟩ := index_maps t
  funext j
  obtain ⟨a, b, rfl⟩ : ∃ (a : Fin 2000) (b : Fin 256), j = ix2 a b := ⟨j 0, j 1, eq_ix2 j⟩
  have ht : t.val < 25 := t.isLt
  have hp : t.val * 2000 + a.val < 50000 := by have := a.isLt; omega
  have hB : iblk0 V c 1 t = V c main_arg4 := by
    funext y
    show V c main_arg4 (((cfg0.win 1).blk t).view.emb y) = V c main_arg4 y
    refine congrArg _ (funext fun d => Fin.ext ?_)
    match d with
    | ⟨0, _⟩ => show win0_1.index t (0 : Fin 2) * 512 + 1 * (y 0).val = (y 0).val; omega
    | ⟨1, _⟩ => show win0_1.index t (1 : Fin 2) * 256 + 1 * (y 1).val = (y 1).val; omega
  rw [hB]
  refine (stored_apply (iblk0 V c 0 t) (V c main_arg4) (V c main_arg0) a ⟨t.val * 2000 + a.val, hp⟩ b fun k => ?_).trans ?_
  · show V c main_arg0 (((cfg0.win 0).blk t).view.emb (ix2 a k)) = V c main_arg0 (ix2 ⟨t.val * 2000 + a.val, hp⟩ k)
    refine congrArg _ (funext fun d => Fin.ext ?_)
    match d with
    | ⟨0, _⟩ => show win0_0.index t (0 : Fin 2) * 2000 + 1 * a.val = t.val * 2000 + a.val; omega
    | ⟨1, _⟩ => show win0_0.index t (1 : Fin 2) * 512 + 1 * k.val = k.val; omega
  · show mm (V c main_arg0) (V c main_arg4) (ix2 ⟨t.val * 2000 + a.val, hp⟩ b)
        = mm (V c main_arg0) (V c main_arg4) (((cfg0.win 2).blk t).view.emb (ix2 a b))
    refine congrArg _ (funext fun d => Fin.ext ?_)
    match d with
    | ⟨0, _⟩ => show t.val * 2000 + a.val = win0_2.index t (0 : Fin 2) * 2000 + 1 * a.val; omega
    | ⟨1, _⟩ => show b.val = win0_2.index t (1 : Fin 2) * 256 + 1 * b.val; omega

/-- An index of the output array is in point `t`'s block iff each coordinate is in the block's range on its axis. -/
theorem mem_block (t : Fin cfg0.N) (i : S50000x256.Idx) :
    i ∈ ((cfg0.win 2).blk t).view.set
      ↔ ∀ a : Fin 2, win0_2.index t a * S2000x256.size a ≤ (i a).val
          ∧ (i a).val < win0_2.index t a * S2000x256.size a + S2000x256.size a := by
  show i ∈ ((View.whole main_v4).slice (win0_2.rect t)).set ↔ _
  rw [View.set_slice_whole, Rect.mem_set_unit]
  exact Iff.rfl

/-- Every row of the output lies in the band of the point `row / 2000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < 25 := by omega
  refine ⟨⟨(i 0).val / 2000, ht⟩, flush0_2 _, ?_⟩
  rw [mem_block]
  obtain ⟨e0, e1, e2, e3, e4, e5⟩ := index_maps ⟨(i 0).val / 2000, ht⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 256 ≤ (i 1).val ∧ (i 1).val < win0_2.index _ (1 : Fin 2) * 256 + 256
    rw [e5]; omega

/-- The output array after the region is the product of the two arrays the region found. -/
theorem product (c : Dev nD) :
    (dat0 V c).arrAt 2 cfg0.N = mm (V c main_arg0) (V c main_arg4) :=
  (dat0 V c).arrAt_eq_of_cover 2 _ (fun t _ => flushed_eq V c t) (covered)

end Cert.KernelIdeal.Band0

end
-- ==== Proof.Band1.lean ====
/-
  Pipelined product number 1. The 50000-row left operand is cut into 25 bands of 2000 rows. Grid point `t` loads band `t`
  whole, loads the whole 256×256 right operand, multiplies the two into a zero accumulator and writes the result back as
  band `t` of the 50000×256 output. A row of a product depends on the left operand through that row alone, so what point `t`
  writes is band `t` of the product of the two whole arrays; the 25 bands cover every row, so the region leaves in its
  output array the whole product `mm A B` of the arrays `A`, `B` it found in its two input arrays. Changing the float
  format of the operands is the identity on the extended reals.
-/
import proofs.«153874_j86234353369872_1_alg».proof.Proof.Gen.KernelIdeal.Frame
import proofs.«153874_j86234353369872_1_alg».proof.Proof.LibMatProd
import Idealize.ShloMosaic.Lib.Pipeline.Value
import Idealize.ShloMosaic.Lib.ValueIdx

set_option maxRecDepth 16384

noncomputable section

namespace Cert.KernelIdeal.Band1

open Cert.KernelIdeal Cert.KernelIdeal.Gen Idealize.ShloMosaic Idealize.ShloMosaic.TcCoe Idealize.ShloMosaic.ValueIdx
open Idealize.SL.Sem Cert.LibMatProd
open Idealize.ShloMosaic.Pipeline (Dat)

variable (V : (c : Dev nD) → (b : Ref sig .tc) → Buf (Elt Ideal) ((c : Thread nD τ).loc b))

/-- The body's loads and its store start at the corner of their buffers. -/
theorem corner : (![0, 0] : Fin 2 → Nat) = fun _ => 0 := funext fun a => by fin_cases a <;> rfl

/-- The index maps over the grid: the left operand's and the output's block row is the point, every other block
    coordinate is zero. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of what the body stores: if row `a` of the loaded band is row `p` of `A`, the entry at `(a, b)` is the
    entry at `(p, b)` of the product of `A` with the loaded right operand. -/
theorem stored_apply (x0 : Vec Ideal S2000x256 .f32) (x1 : Vec Ideal S256x256 .f32) (A : S50000x256.Idx → EReal)
    (a : Fin 2000) (p : Fin 50000) (b : Fin 256) (hrow : ∀ k : Fin 256, x0 (ix2 a k) = A (ix2 p k)) :
    k1_pay1 (F := Ideal) x0 x1 (ix2 a b) = mm A x1 (ix2 p b) := by
  unfold k1_pay1
  simp only [shapeCast_self]
  exact matmul_band_apply dot_S2000x256_S256x256_S2000x256_1_0_0_1_n_n_wf none x0 A x1 a p b hrow

/-- What point `t` writes back is block `t` of the product of the two arrays the region found. -/
theorem flushed_eq (c : Dev nD) (t : Fin cfg1.N) :
    (dat1 V c).flushed 2 t
      = ((cfg1.win 2).blk t).view.read (Elt Ideal) (mm (V c main_v18) (V c main_arg5)) := by
  show (cfg1.win 2).cut (grid1.coords t) ((dat1 V c).after 2 t) = _
  rw [after1_2]
  unfold out1_2
  rw [View.canon_unit_zero corner]
  simp only [View.ld_unit_zero (S := S2000x256) corner, View.ld_unit_zero (S := S256x256) corner]
  obtain ⟨e0, e1, e2, e3, e4, e5⟩ := index_maps t
  funext j
  obtain ⟨a, b, rfl⟩ : ∃ (a : Fin 2000) (b : Fin 256), j = ix2 a b := ⟨j 0, j 1, eq_ix2 j⟩
  have ht : t.val < 25 := t.isLt
  have hp : t.val * 2000 + a.val < 50000 := by have := a.isLt; omega
  have hB : iblk1 V c 1 t = V c main_arg5 := by
    funext y
    show V c main_arg5 (((cfg1.win 1).blk t).view.emb y) = V c main_arg5 y
    refine congrArg _ (funext fun d => Fin.ext ?_)
    match d with
    | ⟨0, _⟩ => show win1_1.index t (0 : Fin 2) * 256 + 1 * (y 0).val = (y 0).val; omega
    | ⟨1, _⟩ => show win1_1.index t (1 : Fin 2) * 256 + 1 * (y 1).val = (y 1).val; omega
  rw [hB]
  refine (stored_apply (iblk1 V c 0 t) (V c main_arg5) (V c main_v18) a ⟨t.val * 2000 + a.val, hp⟩ b fun k => ?_).trans ?_
  · show V c main_v18 (((cfg1.win 0).blk t).view.emb (ix2 a k)) = V c main_v18 (ix2 ⟨t.val * 2000 + a.val, hp⟩ k)
    refine congrArg _ (funext fun d => Fin.ext ?_)
    match d with
    | ⟨0, _⟩ => show win1_0.index t (0 : Fin 2) * 2000 + 1 * a.val = t.val * 2000 + a.val; omega
    | ⟨1, _⟩ => show win1_0.index t (1 : Fin 2) * 256 + 1 * k.val = k.val; omega
  · show mm (V c main_v18) (V c main_arg5) (ix2 ⟨t.val * 2000 + a.val, hp⟩ b)
        = mm (V c main_v18) (V c main_arg5) (((cfg1.win 2).blk t).view.emb (ix2 a b))
    refine congrArg _ (funext fun d => Fin.ext ?_)
    match d with
    | ⟨0, _⟩ => show t.val * 2000 + a.val = win1_2.index t (0 : Fin 2) * 2000 + 1 * a.val; omega
    | ⟨1, _⟩ => show b.val = win1_2.index t (1 : Fin 2) * 256 + 1 * b.val; omega

/-- An index of the output array is in point `t`'s block iff each coordinate is in the block's range on its axis. -/
theorem mem_block (t : Fin cfg1.N) (i : S50000x256.Idx) :
    i ∈ ((cfg1.win 2).blk t).view.set
      ↔ ∀ a : Fin 2, win1_2.index t a * S2000x256.size a ≤ (i a).val
          ∧ (i a).val < win1_2.index t a * S2000x256.size a + S2000x256.size a := by
  show i ∈ ((View.whole main_v19).slice (win1_2.rect t)).set ↔ _
  rw [View.set_slice_whole, Rect.mem_set_unit]
  exact Iff.rfl

/-- Every row of the output lies in the band of the point `row / 2000`. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have ht : (i 0).val / 2000 < 25 := by omega
  refine ⟨⟨(i 0).val / 2000, ht⟩, flush1_2 _, ?_⟩
  rw [mem_block]
  obtain ⟨e0, e1, e2, e3, e4, e5⟩ := index_maps ⟨(i 0).val / 2000, ht⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 256 ≤ (i 1).val ∧ (i 1).val < win1_2.index _ (1 : Fin 2) * 256 + 256
    rw [e5]; omega

/-- The output array after the region is the product of the two arrays the region found. -/
theorem product (c : Dev nD) :
    (dat1 V c).arrAt 2 cfg1.N = mm (V c main_v18) (V c main_arg5) :=
  (dat1 V c).arrAt_eq_of_cover 2 _ (fun t _ => flushed_eq V c t) (covered)

end Cert.KernelIdeal.Band1

end
-- ==== Proof.Band2.lean ====
/-
  Pipelined product number 2. The 200000-row left operand is cut into 100 bands of 2000 rows. Grid point `t` loads band `t`
  whole, loads the whole 256×2 right operand, multiplies the two into a zero accumulator and writes the result back as
  band `t` of the 200000×2 output. A row of a product depends on the left operand through that row alone, so what point `t`
  writes is band `t` of the product of the two whole arrays; the 100 bands cover every row, so the region leaves in its
  output array the whole product `mm A B` of the arrays `A`, `B` it found in its two input arrays. Changing the float
  format of the operands is the identity on the extended reals.
-/
import proofs.«153874_j86234353369872_1_alg».proof.Proof.Gen.KernelIdeal.Frame
import proofs.«153874_j86234353369872_1_alg».proof.Proof.LibMatProd
import Idealize.ShloMosaic.Lib.Pipeline.Value
import Idealize.ShloMosaic.Lib.ValueIdx

set_option maxRecDepth 16384

noncomputable section

namespace Cert.KernelIdeal.Band2

open Cert.KernelIdeal Cert.KernelIdeal.Gen Idealize.ShloMosaic Idealize.ShloMosaic.TcCoe Idealize.ShloMosaic.ValueIdx
open Idealize.SL.Sem Cert.LibMatProd
open Idealize.ShloMosaic.Pipeline (Dat)

variable (V : (c : Dev nD) → (b : Ref sig .tc) → Buf (Elt Ideal) ((c : Thread nD τ).loc b))

/-- The body's loads and its store start at the corner of their buffers. -/
theorem corner : (![0, 0] : Fin 2 → Nat) = fun _ => 0 := funext fun a => by fin_cases a <;> rfl

/-- The index maps over the grid: the left operand's and the output's block row is the point, every other block
    coordinate is zero. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of what the body stores: if row `a` of the loaded band is row `p` of `A`, the entry at `(a, b)` is the
    entry at `(p, b)` of the product of `A` with the loaded right operand. -/
theorem stored_apply (x0 : Vec Ideal S2000x256 .f32) (x1 : Vec Ideal S256x2 .f32) (A : S200000x256.Idx → EReal)
    (a : Fin 2000) (p : Fin 200000) (b : Fin 2) (hrow : ∀ k : Fin 256, x0 (ix2 a k) = A (ix2 p k)) :
    k2_pay1 (F := Ideal) x0 x1 (ix2 a b) = mm A x1 (ix2 p b) := by
  unfold k2_pay1
  simp only [shapeCast_self]
  exact matmul_band_apply dot_S2000x256_S256x2_S2000x2_1_0_0_1_n_n_wf none x0 A x1 a p b hrow

/-- What point `t` writes back is block `t` of the product of the two arrays the region found. -/
theorem flushed_eq (c : Dev nD) (t : Fin cfg2.N) :
    (dat2 V c).flushed 2 t
      = ((cfg2.win 2).blk t).view.read (Elt Ideal) (mm (V c main_v41) (V c main_v51)) := by
  show (cfg2.win 2).cut (grid2.coords t) ((dat2 V c).after 2 t) = _
  rw [after2_2]
  unfold out2_2
  rw [View.canon_unit_zero corner]
  simp only [View.ld_unit_zero (S := S2000x256) corner, View.ld_unit_zero (S := S256x2) corner]
  obtain ⟨e0, e1, e2, e3, e4, e5⟩ := index_maps t
  funext j
  obtain ⟨a, b, rfl⟩ : ∃ (a : Fin 2000) (b : Fin 2), j = ix2 a b := ⟨j 0, j 1, eq_ix2 j⟩
  have ht : t.val < 100 := t.isLt
  have hp : t.val * 2000 + a.val < 200000 := by have := a.isLt; omega
  have hB : iblk2 V c 1 t = V c main_v51 := by
    funext y
    show V c main_v51 (((cfg2.win 1).blk t).view.emb y) = V c main_v51 y
    refine congrArg _ (funext fun d => Fin.ext ?_)
    match d with
    | ⟨0, _⟩ => show win2_1.index t (0 : Fin 2) * 256 + 1 * (y 0).val = (y 0).val; omega
    | ⟨1, _⟩ => show win2_1.index t (1 : Fin 2) * 2 + 1 * (y 1).val = (y 1).val; omega
  rw [hB]
  refine (stored_apply (iblk2 V c 0 t) (V c main_v51) (V c main_v41) a ⟨t.val * 2000 + a.val, hp⟩ b fun k => ?_).trans ?_
  · show V c main_v41 (((cfg2.win 0).blk t).view.emb (ix2 a k)) = V c main_v41 (ix2 ⟨t.val * 2000 + a.val, hp⟩ k)
    refine congrArg _ (funext fun d => Fin.ext ?_)
    match d with
    | ⟨0, _⟩ => show win2_0.index t (0 : Fin 2) * 2000 + 1 * a.val = t.val * 2000 + a.val; omega
    | ⟨1, _⟩ => show win2_0.index t (1 : Fin 2) * 256 + 1 * k.val = k.val; omega
  · show mm (V c main_v41) (V c main_v51) (ix2 ⟨t.val * 2000 + a.val, hp⟩ b)
        = mm (V c main_v41) (V c main_v51) (((cfg2.win 2).blk t).view.emb (ix2 a b))
    refine congrArg _ (funext fun d => Fin.ext ?_)
    match d with
    | ⟨0, _⟩ => show t.val * 2000 + a.val = win2_2.index t (0 : Fin 2) * 2000 + 1 * a.val; omega
    | ⟨1, _⟩ => show b.val = win2_2.index t (1 : Fin 2) * 2 + 1 * b.val; omega

/-- An index of the output array is in point `t`'s block iff each coordinate is in the block's range on its axis. -/
theorem mem_block (t : Fin cfg2.N) (i : S200000x2.Idx) :
    i ∈ ((cfg2.win 2).blk t).view.set
      ↔ ∀ a : Fin 2, win2_2.index t a * S2000x2.size a ≤ (i a).val
          ∧ (i a).val < win2_2.index t a * S2000x2.size a + S2000x2.size a := by
  show i ∈ ((View.whole main_v53).slice (win2_2.rect t)).set ↔ _
  rw [View.set_slice_whole, Rect.mem_set_unit]
  exact Iff.rfl

/-- Every row of the output lies in the band of the point `row / 2000`. -/
theorem covered (i : S200000x2.Idx) :
    ∃ t : Fin cfg2.N, (cfg2.win 2).flush t = true ∧ i ∈ ((cfg2.win 2).blk t).view.set := by
  have hi0 : (i 0).val < 200000 := (i 0).isLt
  have hi1 : (i 1).val < 2 := (i 1).isLt
  have ht : (i 0).val / 2000 < 100 := by omega
  refine ⟨⟨(i 0).val / 2000, ht⟩, flush2_2 _, ?_⟩
  rw [mem_block]
  obtain ⟨e0, e1, e2, e3, e4, e5⟩ := index_maps ⟨(i 0).val / 2000, ht⟩
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 2 ≤ (i 1).val ∧ (i 1).val < win2_2.index _ (1 : Fin 2) * 2 + 2
    rw [e5]; omega

/-- The output array after the region is the product of the two arrays the region found. -/
theorem product (c : Dev nD) :
    (dat2 V c).arrAt 2 cfg2.N = mm (V c main_v41) (V c main_v51) :=
  (dat2 V c).arrAt_eq_of_cover 2 _ (fun t _ => flushed_eq V c t) (covered)

end Cert.KernelIdeal.Band2

end
-- ==== Proof.Band3.lean ====
/-
  Pipelined product number 3. The 200000-row left operand is cut into 100 bands of 2000 rows. Grid point `t` loads band `t`
  whole, loads the whole 256×2 right operand, multiplies the two into a zero accumulator and writes the result back as
  band `t` of the 200000×2 output. A row of a product depends on the left operand through that row alone, so what point `t`
  writes is band `t` of the product of the two whole arrays; the 100 bands cover every row, so the region leaves in its
  output array the whole product `mm A B` of the arrays `A`, `B` it found in its two input arrays. Changing the float
  format of the operands is the identity on the extended reals.
-/
import proofs.«153874_j86234353369872_1_alg».proof.Proof.Gen.KernelIdeal.Frame
import proofs.«153874_j86234353369872_1_alg».proof.Proof.LibMatProd
import Idealize.ShloMosaic.Lib.Pipeline.Value
import Idealize.ShloMosaic.Lib.ValueIdx

set_option maxRecDepth 16384

noncomputable section

namespace Cert.KernelIdeal.Band3

open Cert.KernelIdeal Cert.KernelIdeal.Gen Idealize.ShloMosaic Idealize.ShloMosaic.TcCoe Idealize.ShloMosaic.ValueIdx
open Idealize.SL.Sem Cert.LibMatProd
open Idealize.ShloMosaic.Pipeline (Dat)

variable (V : (c : Dev nD) → (b : Ref sig .tc) → Buf (Elt Ideal) ((c : Thread nD τ).loc b))

/-- The body's loads and its store start at the corner of their buffers. -/
theorem corner : (![0, 0] : Fin 2 → Nat) = fun _ => 0 := funext fun a => by fin_cases a <;> rfl

/-- The index maps over the grid: the left operand's and the output's block row is the point, every other block
    coordinate is zero. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of what the body stores: if row `a` of the loaded band is row `p` of `A`, the entry at `(a, b)` is the
    entry at `(p, b)` of the product of `A` with the loaded right operand. -/
theorem stored_apply (x0 : Vec Ideal S2000x256 .f32) (x1 : Vec Ideal S256x2 .f32) (A : S200000x256.Idx → EReal)
    (a : Fin 2000) (p : Fin 200000) (b : Fin 2) (hrow : ∀ k : Fin 256, x0 (ix2 a k) = A (ix2 p k)) :
    k3_pay1 (F := Ideal) x0 x1 (ix2 a b) = mm A x1 (ix2 p b) := by
  unfold k3_pay1
  simp only [shapeCast_self]
  exact matmul_band_apply dot_S2000x256_S256x2_S2000x2_1_0_0_1_n_n_wf none x0 A x1 a p b hrow

/-- What point `t` writes back is block `t` of the product of the two arrays the region found. -/
theorem flushed_eq (c : Dev nD) (t : Fin cfg3.N) :
    (dat3 V c).flushed 2 t
      = ((cfg3.win 2).blk t).view.read (Elt Ideal) (mm (V c main_v50) (V c main_v52)) := by
  show (cfg3.win 2).cut (grid3.coords t) ((dat3 V c).after 2 t) = _
  rw [after3_2]
  unfold out3_2
  rw [View.canon_unit_zero corner]
  simp only [View.ld_unit_zero (S := S2000x256) corner, View.ld_unit_zero (S := S256x2) corner]
  obtain ⟨e0, e1, e2, e3, e4, e5⟩ := index_maps t
  funext j
  obtain ⟨a, b, rfl⟩ : ∃ (a : Fin 2000) (b : Fin 2), j = ix2 a b := ⟨j 0, j 1, eq_ix2 j⟩
  have ht : t.val < 100 := t.isLt
  have hp : t.val * 2000 + a.val < 200000 := by have := a.isLt; omega
  have hB : iblk3 V c 1 t = V c main_v52 := by
    funext y
    show V c main_v52 (((cfg3.win 1).blk t).view.emb y) = V c main_v52 y
    refine congrArg _ (funext fun d => Fin.ext ?_)
    match d with
    | ⟨0, _⟩ => show win3_1.index t (0 : Fin 2) * 256 + 1 * (y 0).val = (y 0).val; omega
    | ⟨1, _⟩ => show win3_1.index t (1 : Fin 2) * 2 + 1 * (y 1).val = (y 1).val; omega
  rw [hB]
  refine (stored_apply (iblk3 V c 0 t) (V c main_v52) (V c main_v50) a ⟨t.val * 2000 + a.val, hp⟩ b fun k => ?_).trans ?_
  · show V c main_v50 (((cfg3.win 0).blk t).view.emb (ix2 a k)) = V c main_v50 (ix2 ⟨t.val * 2000 + a.val, hp⟩ k)
    refine congrArg _ (funext fun d => Fin.ext ?_)
    match d with
    | ⟨0, _⟩ => show win3_0.index t (0 : Fin 2) * 2000 + 1 * a.val = t.val * 2000 + a.val; omega
    | ⟨1, _⟩ => show win3_0.index t (1 : Fin 2) * 256 + 1 * k.val = k.val; omega
  · show mm (V c main_v50) (V c main_v52) (ix2 ⟨t.val * 2000 + a.val, hp⟩ b)
        = mm (V c main_v50) (V c main_v52) (((cfg3.win 2).blk t).view.emb (ix2 a b))
    refine congrArg _ (funext fun d => Fin.ext ?_)
    match d with
    | ⟨0, _⟩ => show t.val * 2000 + a.val = win3_2.index t (0 : Fin 2) * 2000 + 1 * a.val; omega
    | ⟨1, _⟩ => show b.val = win3_2.index t (1 : Fin 2) * 2 + 1 * b.val; omega

/-- An index of the output array is in point `t`'s block iff each coordinate is in the block's range on its axis. -/
theorem mem_block (t : Fin cfg3.N) (i : S200000x2.Idx) :
    i ∈ ((cfg3.win 2).blk t).view.set
      ↔ ∀ a : Fin 2, win3_2.index t a * S2000x2.size a ≤ (i a).val
          ∧ (i a).val < win3_2.index t a * S2000x2.size a + S2000x2.size a := by
  show i ∈ ((View.whole main_v54).slice (win3_2.rect t)).set ↔ _
  rw [View.set_slice_whole, Rect.mem_set_unit]
  exact Iff.rfl

/-- Every row of the output lies in the band of the point `row / 2000`. -/
theorem covered (i : S200000x2.Idx) :
    ∃ t : Fin cfg3.N, (cfg3.win 2).flush t = true ∧ i ∈ ((cfg3.win 2).blk t).view.set := by
  have hi0 : (i 0).val < 200000 := (i 0).isLt
  have hi1 : (i 1).val < 2 := (i 1).isLt
  have ht : (i 0).val / 2000 < 100 := by omega
  refine ⟨⟨(i 0).val / 2000, ht⟩, flush3_2 _, ?_⟩
  rw [mem_block]
  obtain ⟨e0, e1, e2, e3, e4, e5⟩ := index_maps ⟨(i 0).val / 2000, ht⟩
  intro a
  match a with
  | ⟨0, _⟩ =>
    show win3_2.index _ (0 : Fin 2) * 2000 ≤ (i 0).val ∧ (i 0).val < win3_2.index _ (0 : Fin 2) * 2000 + 2000
    rw [e4]; show (i 0).val / 2000 * 2000 ≤ (i 0).val ∧ (i 0).val < (i 0).val / 2000 * 2000 + 2000; omega
  | ⟨1, _⟩ =>
    show win3_2.index _ (1 : Fin 2) * 2 ≤ (i 1).val ∧ (i 1).val < win3_2.index _ (1 : Fin 2) * 2 + 2
    rw [e5]; omega

/-- The output array after the region is the product of the two arrays the region found. -/
theorem product (c : Dev nD) :
    (dat3 V c).arrAt 2 cfg3.N = mm (V c main_v50) (V c main_v52) :=
  (dat3 V c).arrAt_eq_of_cover 2 _ (fun t _ => flushed_eq V c t) (covered)

end Cert.KernelIdeal.Band3

end
-- ==== Proof.Stretches.lean ====
/-
  The kernel's five stretches of host operations, each read at the buffers the later segments use, from ANY contents
  `W` of the buffers on entry: what a stretch leaves in a buffer it writes is the stage function of the contents of the
  buffers it reads. The entry contents stay a variable here; the walk through the segment boundaries instantiates
  them.
-/
import proofs.«153874_j86234353369872_1_alg».proof.Proof.Gen.KernelIdeal.Launch
import proofs.«153874_j86234353369872_1_alg».proof.Proof.Stages
import Idealize.ShloMosaic.Lib.StableHlo.Run

set_option maxRecDepth 16384

noncomputable section

namespace Cert.KernelIdeal.Stretches

open Cert.KernelIdeal Cert.KernelIdeal.Gen Cert.KernelIdeal.Stages
open Idealize.ShloMosaic Idealize.ShloMosaic.TcCoe Idealize.SL.Sem Idealize.ShloMosaic.StableHlo Cert.LibMatProd

variable (W : Valuation τ sig (Elt Ideal))

/-- The first stretch leaves the edges' tails … -/
theorem tails : StableHlo.after hostOps0 W (Proc.devRef .tc main_v1) = tail (W (Proc.devRef .tc main_arg1)) := by
  after_results_simp <;> rfl

/-- … and the edges' heads. -/
theorem heads : StableHlo.after hostOps0 W (Proc.devRef .tc main_v3) = head (W (Proc.devRef .tc main_arg1)) := by
  after_results_simp <;> rfl

/-- The stretch after the first product aggregates it along the edges. -/
theorem aggregated : StableHlo.after hostOps1 W (Proc.devRef .tc main_v17)
    = aggregate (W (Proc.devRef .tc main_v4)) (W (Proc.devRef .tc main_v1)) (W (Proc.devRef .tc main_v3))
        (W (Proc.devRef .tc main_arg2)) := by
  after_results_simp <;> rfl

/-- The next stretch clamps the aggregate below at zero. -/
theorem clamped : StableHlo.after hostOps1_1 W (Proc.devRef .tc main_v18)
    = clampBelow (W (Proc.devRef .tc main_v17)) := by
  after_results_simp <;> rfl

/-- The long stretch aggregates the second product and gathers its rows at the pairs' first endpoints … -/
theorem firstRows : StableHlo.after hostOps2 W (Proc.devRef .tc main_v41)
    = rowsAt (aggregate (W (Proc.devRef .tc main_v19)) (W (Proc.devRef .tc main_v1)) (W (Proc.devRef .tc main_v3))
        (W (Proc.devRef .tc main_arg2))) (firstEnd (W (Proc.devRef .tc main_arg3))) := by
  after_results_simp <;> rfl

/-- … and at their second endpoints, … -/
theorem secondRows : StableHlo.after hostOps2 W (Proc.devRef .tc main_v50)
    = rowsAt (aggregate (W (Proc.devRef .tc main_v19)) (W (Proc.devRef .tc main_v1)) (W (Proc.devRef .tc main_v3))
        (W (Proc.devRef .tc main_arg2))) (secondEnd (W (Proc.devRef .tc main_arg3))) := by
  after_results_simp <;> rfl

/-- … and cuts the decode matrix into its upper … -/
theorem upper : StableHlo.after hostOps2 W (Proc.devRef .tc main_v51) = upperRows (W (Proc.devRef .tc main_arg6)) := by
  after_results_simp <;> rfl

/-- … and lower 256 rows. -/
theorem lower : StableHlo.after hostOps2 W (Proc.devRef .tc main_v52) = lowerRows (W (Proc.devRef .tc main_arg6)) := by
  after_results_simp <;> rfl

/-- The last stretch adds the two decode products. -/
theorem added : StableHlo.after hostOps4 W (Proc.devRef .tc main_v55)
    = addf (F := Ideal) (φ := .f32) (W (Proc.devRef .tc main_v53)) (W (Proc.devRef .tc main_v54)) := by
  after_results_simp <;> rfl

end Cert.KernelIdeal.Stretches

end
-- ==== Proof.Walk.lean ====
/-
  The result buffer at the last segment boundary, walked back to the launch memory.

  The contents of the buffers at the nine segment boundaries are a fold: a host stretch applies its operations and keeps
  every buffer it does not write; a pipelined product replaces its output array by the product of its two input arrays
  (the band modules) and keeps every other buffer. Walking back from the final addition: each decode product reads rows
  of the embedding and half of the decode matrix, computed by the long stretch from the second product, the edge
  table's two rows, the weights and the pair table; the second product reads the clamped first aggregate and `W2`; the
  first aggregate reads the first product, which reads `x` and `W1` as launched. No stretch and no region writes an
  argument, nor the edge table's two rows once they are made. So the result buffer ends at `kernelValue` of the seven
  argument arrays as launched.
-/
import proofs.«153874_j86234353369872_1_alg».proof.Proof.Gen.KernelIdeal.Frame
import proofs.«153874_j86234353369872_1_alg».proof.Proof.Stages
import proofs.«153874_j86234353369872_1_alg».proof.Proof.Band0
import proofs.«153874_j86234353369872_1_alg».proof.Proof.Band1
import proofs.«153874_j86234353369872_1_alg».proof.Proof.Band2
import proofs.«153874_j86234353369872_1_alg».proof.Proof.Band3
import proofs.«153874_j86234353369872_1_alg».proof.Proof.Stretches
import Idealize.ShloMosaic.Lib.StableHlo.Run

set_option maxRecDepth 16384

noncomputable section

namespace Cert.KernelIdeal.Walk

open Cert.KernelIdeal Cert.KernelIdeal.Gen Cert.KernelIdeal.Stages
open Idealize.ShloMosaic Idealize.ShloMosaic.TcCoe Idealize.SL.Sem Idealize.ShloMosaic.StableHlo Cert.LibMatProd

variable (m : (ℓ : Loc nD τ sig) → Buf (Elt Ideal) ℓ) (ρ : Dev nD → PrngReg) (c : Dev nD)

/-- A stretch of host operations keeps a buffer none of its operations writes. -/
macro "kept" : tactic => `(tactic| (
  refine StableHlo.after_of_forall_not_mem _ _ (List.forall_iff_forall_mem.mp ?_)
  simp only [hostOps0, hostOps1, hostOps1_1, hostOps2, hostOps4, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Buffers that only travel -/

/-- A buffer the first stretch does not write enters the first product as launched. -/
theorem at1 (b : Ref sig .tc)
    (k0 : StableHlo.after hostOps0 (W0 m ρ c) (Proc.devRef .tc b) = W0 m ρ c (Proc.devRef .tc b)) :
    W1 m ρ c (Proc.devRef .tc b) = m ((c : Thread nD τ).loc b) := k0.trans rfl

/-- A buffer that is no array of the first product leaves it as it entered. -/
theorem at2 (b : Ref sig .tc) (h0 : ∀ w, Pipeline.arrRef spec0 w ≠ b) :
    W2 m ρ c (Proc.devRef .tc b) = W1 m ρ c (Proc.devRef .tc b) := W2_of_ne m ρ c b h0

/-- … and, written by neither of the two stretches after it, enters the second product unchanged. -/
theorem at4 (b : Ref sig .tc) (h0 : ∀ w, Pipeline.arrRef spec0 w ≠ b)
    (k1 : StableHlo.after hostOps1 (W2 m ρ c) (Proc.devRef .tc b) = W2 m ρ c (Proc.devRef .tc b))
    (k11 : StableHlo.after hostOps1_1 (W3 m ρ c) (Proc.devRef .tc b) = W3 m ρ c (Proc.devRef .tc b)) :
    W4 m ρ c (Proc.devRef .tc b) = W1 m ρ c (Proc.devRef .tc b) :=
  k11.trans (k1.trans (at2 m ρ c b h0))

/-- … and, no array of the second product either, leaves it unchanged. -/
theorem at5 (b : Ref sig .tc) (h0 : ∀ w, Pipeline.arrRef spec0 w ≠ b) (h1 : ∀ w, Pipeline.arrRef spec1 w ≠ b)
    (k1 : StableHlo.after hostOps1 (W2 m ρ c) (Proc.devRef .tc b) = W2 m ρ c (Proc.devRef .tc b))
    (k11 : StableHlo.after hostOps1_1 (W3 m ρ c) (Proc.devRef .tc b) = W3 m ρ c (Proc.devRef .tc b)) :
    W5 m ρ c (Proc.devRef .tc b) = W1 m ρ c (Proc.devRef .tc b) :=
  (W5_of_ne m ρ c b h1).trans (at4 m ρ c b h0 k1 k11)

/-! ## The first stretch: the edge table's two rows -/

theorem tails1 : W1 m ρ c (Proc.devRef .tc main_v1) = tail (m ((c : Thread nD τ).loc main_arg1)) :=
  Stretches.tails (W0 m ρ c)

theorem heads1 : W1 m ρ c (Proc.devRef .tc main_v3) = head (m ((c : Thread nD τ).loc main_arg1)) :=
  Stretches.heads (W0 m ρ c)

/-! ## The first product and the first aggregate -/

theorem product0 : W2 m ρ c (Proc.devRef .tc main_v4)
    = mm (m ((c : Thread nD τ).loc main_arg0)) (m ((c : Thread nD τ).loc main_arg4)) := by
  have e := (W2_arr m ρ c 2).trans (Band0.product (V1 m ρ) c)
  rw [show V1 m ρ c main_arg0 = m ((c : Thread nD τ).loc main_arg0) from at1 m ρ c main_arg0 (by kept),
    show V1 m ρ c main_arg4 = m ((c : Thread nD τ).loc main_arg4) from at1 m ρ c main_arg4 (by kept)] at e
  exact e

theorem aggregate3 : W3 m ρ c (Proc.devRef .tc main_v17)
    = aggregate (mm (m ((c : Thread nD τ).loc main_arg0)) (m ((c : Thread nD τ).loc main_arg4)))
        (tail (m ((c : Thread nD τ).loc main_arg1))) (head (m ((c : Thread nD τ).loc main_arg1)))
        (m ((c : Thread nD τ).loc main_arg2)) := by
  rw [← product0 m ρ c, ← tails1 m ρ c, ← heads1 m ρ c,
    ← at1 m ρ c main_arg2 (by kept), ← at2 m ρ c main_v1 (by decide), ← at2 m ρ c main_v3 (by decide),
    ← at2 m ρ c main_arg2 (by decide)]
  exact Stretches.aggregated (W2 m ρ c)

theorem clamped4 : W4 m ρ c (Proc.devRef .tc main_v18) = clampBelow (W3 m ρ c (Proc.devRef .tc main_v17)) :=
  Stretches.clamped (W3 m ρ c)

/-! ## The second product -/

theorem product1 : W5 m ρ c (Proc.devRef .tc main_v19)
    = mm (clampBelow (W3 m ρ c (Proc.devRef .tc main_v17))) (m ((c : Thread nD τ).loc main_arg5)) := by
  have e := (W5_arr m ρ c 2).trans (Band1.product (V4 m ρ) c)
  rw [show V4 m ρ c main_v18 = clampBelow (W3 m ρ c (Proc.devRef .tc main_v17)) from clamped4 m ρ c,
    show V4 m ρ c main_arg5 = m ((c : Thread nD τ).loc main_arg5) from
      (at4 m ρ c main_arg5 (by decide) (by kept) (by kept)).trans (at1 m ρ c main_arg5 (by kept))] at e
  exact e

/-! ## What travels to the long stretch -/

theorem weights5 : W5 m ρ c (Proc.devRef .tc main_arg2) = m ((c : Thread nD τ).loc main_arg2) :=
  (at5 m ρ c main_arg2 (by decide) (by decide) (by kept) (by kept)).trans (at1 m ρ c main_arg2 (by kept))
theorem pairs5 : W5 m ρ c (Proc.devRef .tc main_arg3) = m ((c : Thread nD τ).loc main_arg3) :=
  (at5 m ρ c main_arg3 (by decide) (by decide) (by kept) (by kept)).trans (at1 m ρ c main_arg3 (by kept))
theorem decode5 : W5 m ρ c (Proc.devRef .tc main_arg6) = m ((c : Thread nD τ).loc main_arg6) :=
  (at5 m ρ c main_arg6 (by decide) (by decide) (by kept) (by kept)).trans (at1 m ρ c main_arg6 (by kept))
theorem tails5 : W5 m ρ c (Proc.devRef .tc main_v1) = tail (m ((c : Thread nD τ).loc main_arg1)) :=
  (at5 m ρ c main_v1 (by decide) (by decide) (by kept) (by kept)).trans (tails1 m ρ c)
theorem heads5 : W5 m ρ c (Proc.devRef .tc main_v3) = head (m ((c : Thread nD τ).loc main_arg1)) :=
  (at5 m ρ c main_v3 (by decide) (by decide) (by kept) (by kept)).trans (heads1 m ρ c)

/-- The embedding: the second aggregate, of the second product. -/
theorem embedding5 :
    aggregate (W5 m ρ c (Proc.devRef .tc main_v19)) (W5 m ρ c (Proc.devRef .tc main_v1))
        (W5 m ρ c (Proc.devRef .tc main_v3)) (W5 m ρ c (Proc.devRef .tc main_arg2))
      = embedding (m ((c : Thread nD τ).loc main_arg0)) (m ((c : Thread nD τ).loc main_arg1))
          (m ((c : Thread nD τ).loc main_arg2)) (m ((c : Thread nD τ).loc main_arg4))
          (m ((c : Thread nD τ).loc main_arg5)) := by
  rw [product1 m ρ c, aggregate3 m ρ c, tails5 m ρ c, heads5 m ρ c, weights5 m ρ c]
  rfl

/-! ## The long stretch: endpoint rows of the embedding, and the halves of the decode matrix -/

theorem firstRows6 : W6 m ρ c (Proc.devRef .tc main_v41)
    = rowsAt (aggregate (W5 m ρ c (Proc.devRef .tc main_v19)) (W5 m ρ c (Proc.devRef .tc main_v1))
        (W5 m ρ c (Proc.devRef .tc main_v3)) (W5 m ρ c (Proc.devRef .tc main_arg2)))
        (firstEnd (W5 m ρ c (Proc.devRef .tc main_arg3))) :=
  Stretches.firstRows (W5 m ρ c)

theorem secondRows6 : W6 m ρ c (Proc.devRef .tc main_v50)
    = rowsAt (aggregate (W5 m ρ c (Proc.devRef .tc main_v19)) (W5 m ρ c (Proc.devRef .tc main_v1))
        (W5 m ρ c (Proc.devRef .tc main_v3)) (W5 m ρ c (Proc.devRef .tc main_arg2)))
        (secondEnd (W5 m ρ c (Proc.devRef .tc main_arg3))) :=
  Stretches.secondRows (W5 m ρ c)

theorem upper6 : W6 m ρ c (Proc.devRef .tc main_v51) = upperRows (W5 m ρ c (Proc.devRef .tc main_arg6)) :=
  Stretches.upper (W5 m ρ c)

theorem lower6 : W6 m ρ c (Proc.devRef .tc main_v52) = lowerRows (W5 m ρ c (Proc.devRef .tc main_arg6)) :=
  Stretches.lower (W5 m ρ c)

/-! ## The two decode products and the final addition -/

theorem product2 : W7 m ρ c (Proc.devRef .tc main_v53)
    = mm (W6 m ρ c (Proc.devRef .tc main_v41)) (W6 m ρ c (Proc.devRef .tc main_v51)) :=
  (W7_arr m ρ c 2).trans (Band2.product (V6 m ρ) c)

theorem product3 : W8 m ρ c (Proc.devRef .tc main_v54)
    = mm (W6 m ρ c (Proc.devRef .tc main_v50)) (W6 m ρ c (Proc.devRef .tc main_v52)) := by
  have e := (W8_arr m ρ c 2).trans (Band3.product (V7 m ρ) c)
  rw [show V7 m ρ c main_v50 = W6 m ρ c (Proc.devRef .tc main_v50) from W7_of_ne m ρ c main_v50 (by decide),
    show V7 m ρ c main_v52 = W6 m ρ c (Proc.devRef .tc main_v52) from W7_of_ne m ρ c main_v52 (by decide)] at e
  exact e

/-- The result buffer at the last boundary is `kernelValue` of the argument arrays as launched. -/
theorem result : W9 m ρ c (Proc.devRef .tc main_v55)
    = kernelValue (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  have e : W9 m ρ c (Proc.devRef .tc main_v55)
      = addf (F := Ideal) (φ := .f32) (W8 m ρ c (Proc.devRef .tc main_v53)) (W8 m ρ c (Proc.devRef .tc main_v54)) :=
    Stretches.added (W8 m ρ c)
  rw [e, product3 m ρ c, W8_of_ne m ρ c main_v53 (by decide), product2 m ρ c, firstRows6 m ρ c, secondRows6 m ρ c,
    upper6 m ρ c, lower6 m ρ c, embedding5 m ρ c, pairs5 m ρ c, decode5 m ρ c]
  rfl

end Cert.KernelIdeal.Walk

end
-- ==== Proof.LibSplitProduct.lean ====
/-
  A product whose LEFT operand is two matrices set side by side splits over the matching bands of rows of the right
  operand: for `X` of `k₁` columns, `Y` of `k₂` columns and `B` of `k₁ + k₂` rows,

      [X | Y] · B  =  X · B[0 : k₁, :]  +  Y · B[k₁ : k₁ + k₂, :]          entry by entry,

  because the sum over the `k₁ + k₂` contracted positions is the sum over the first `k₁` plus the sum over the last
  `k₂`. Only associativity and commutativity of addition are used (no distributivity), so the entries may be any extended
  reals, infinite ones included. The pieces are spelt as a program spells them: a concatenation along axis 1 and two
  unit-stride slices of the rows; any extents.
-/
import Idealize.ShloMosaic.Lib.ValueIdx
import Idealize.ShloMosaic.Lib.Pipeline.Value
import proofs.«153874_j86234353369872_1_alg».proof.Proof.LibMatProd

open scoped BigOperators

noncomputable section

namespace Cert.LibSplitProduct

open Idealize.ShloMosaic Idealize.ShloMosaic.ValueIdx Cert.LibMatProd

/-- A band of rows of `B` starting at row `off`, read at `(c, b)`, is `B` at `(off + c, b)`. -/
theorem row_band_apply {k j r : ℕ} (B : (⟨2, ![k, j]⟩ : Shape).Idx → EReal) (off : ℕ)
    (hs : (⟨2, ![k, j]⟩ : Shape).Slices ![off, 0] (⟨2, ![r, j]⟩ : Shape)) (c : Fin r) (b : Fin j) (p : Fin k)
    (hp : p.val = off + c.val) :
    extractStridedSlice (⟨2, ![r, j]⟩ : Shape) ![off, 0] B hs (ix2 c b) = B (ix2 p b) :=
  extractStridedSlice_apply ![off, 0] B hs (ix2 c b) (ix2 p b) (by
    intro a
    match a with
    | ⟨0, _⟩ => exact hp
    | ⟨1, _⟩ => show b.val = 0 + b.val; omega)

/-- The split of a product over side-by-side left pieces, at one entry. -/
theorem mm_concat_rows_apply {n k₁ k₂ k j : ℕ} (hk : k = k₁ + k₂)
    (X : (⟨2, ![n, k₁]⟩ : Shape).Idx → EReal) (Y : (⟨2, ![n, k₂]⟩ : Shape).Idx → EReal)
    (B : (⟨2, ![k, j]⟩ : Shape).Idx → EReal)
    (h : Shape.Concatenates [(⟨2, ![n, k₁]⟩ : Shape), (⟨2, ![n, k₂]⟩ : Shape)] ⟨2, ![n, k]⟩ 1)
    (hlo : (⟨2, ![k, j]⟩ : Shape).Slices ![0, 0] (⟨2, ![k₁, j]⟩ : Shape))
    (hhi : (⟨2, ![k, j]⟩ : Shape).Slices ![k₁, 0] (⟨2, ![k₂, j]⟩ : Shape))
    (a : Fin n) (b : Fin j) :
    mm (concatenate ⟨2, ![n, k]⟩ 1 [⟨⟨2, ![n, k₁]⟩, X⟩, ⟨⟨2, ![n, k₂]⟩, Y⟩] h) B (ix2 a b)
      = mm X (extractStridedSlice (⟨2, ![k₁, j]⟩ : Shape) ![0, 0] B hlo) (ix2 a b)
        + mm Y (extractStridedSlice (⟨2, ![k₂, j]⟩ : Shape) ![k₁, 0] B hhi) (ix2 a b) := by
  subst hk
  rw [mm_apply, mm_apply, mm_apply, Fin.sum_univ_add]
  refine congrArg₂ (· + ·) (Finset.sum_congr rfl fun c _ => ?_) (Finset.sum_congr rfl fun c _ => ?_)
  · rw [Cert.LibConcatCols.concat_cols_left X Y h a (Fin.castAdd k₂ c) c rfl,
      row_band_apply B 0 hlo c b (Fin.castAdd k₂ c) (by show c.val = 0 + c.val; omega)]
  · rw [Cert.LibConcatCols.concat_cols_right X Y h a (Fin.natAdd k₁ c) c rfl,
      row_band_apply B k₁ hhi c b (Fin.natAdd k₁ c) rfl]

/-- The split as an equation of arrays: the sum of the two partial products is the product with the pieces side by
    side. -/
theorem add_mm_bands_eq_mm_concat {n k₁ k₂ k j : ℕ} (hk : k = k₁ + k₂)
    (X : (⟨2, ![n, k₁]⟩ : Shape).Idx → EReal) (Y : (⟨2, ![n, k₂]⟩ : Shape).Idx → EReal)
    (B : (⟨2, ![k, j]⟩ : Shape).Idx → EReal)
    (h : Shape.Concatenates [(⟨2, ![n, k₁]⟩ : Shape), (⟨2, ![n, k₂]⟩ : Shape)] ⟨2, ![n, k]⟩ 1)
    (hlo : (⟨2, ![k, j]⟩ : Shape).Slices ![0, 0] (⟨2, ![k₁, j]⟩ : Shape))
    (hhi : (⟨2, ![k, j]⟩ : Shape).Slices ![k₁, 0] (⟨2, ![k₂, j]⟩ : Shape)) :
    addf (F := Ideal) (φ := .f32)
        (mm X (extractStridedSlice (⟨2, ![k₁, j]⟩ : Shape) ![0, 0] B hlo))
        (mm Y (extractStridedSlice (⟨2, ![k₂, j]⟩ : Shape) ![k₁, 0] B hhi))
      = mm (concatenate ⟨2, ![n, k]⟩ 1 [⟨⟨2, ![n, k₁]⟩, X⟩, ⟨⟨2, ![n, k₂]⟩, Y⟩] h) B := by
  funext i
  obtain ⟨a, b, rfl⟩ : ∃ (a : Fin n) (b : Fin j), i = ix2 a b := ⟨i 0, i 1, eq_ix2 i⟩
  rw [addf_apply]
  exact (mm_concat_rows_apply hk X Y B h hlo hhi a b).symm

end Cert.LibSplitProduct

end
-- ==== Proof.RefValue.lean ====
/-
  The reference's result is the kernel's function of the seven arguments.

  The reference computes, stage by stage, the same host stretches as the kernel with a whole matrix product where the
  kernel runs a pipelined one, so up to the two endpoint gathers its stages ARE the kernel's stage functions once each
  host product is read as `mm`. The decode differs: the reference sets the two gathered row blocks side by side and
  multiplies by the whole 512-row decode matrix, the kernel multiplies each block by its own 256 rows of that matrix
  and adds. The two agree entry by entry because a sum over 512 contracted positions is the sum over the first 256 plus
  the sum over the last 256; nothing is distributed or cancelled, so no entry need be finite.
-/
import proofs.«153874_j86234353369872_1_alg».proof.Proof.Gen.ReferenceIdeal.Read
import proofs.«153874_j86234353369872_1_alg».proof.Proof.Stages
import proofs.«153874_j86234353369872_1_alg».proof.Proof.LibMatProd
import proofs.«153874_j86234353369872_1_alg».proof.Proof.LibSplitProduct

noncomputable section

namespace Cert.ReferenceIdeal.RefValue

open Cert.ReferenceIdeal Cert.ReferenceIdeal.Facts₀ Cert.ReferenceIdeal.Read Idealize.ShloMosaic Idealize.ShloMosaic.TcCoe
open Cert.LibMatProd Cert.KernelIdeal.Stages

variable (x : (⟨S50000x512, .f32⟩ : BufTy).Contents (Elt Ideal)) (e : (⟨S2x800000, .i32⟩ : BufTy).Contents (Elt Ideal)) (w : (⟨S800000, .f32⟩ : BufTy).Contents (Elt Ideal))
  (p : (⟨S2x200000, .i32⟩ : BufTy).Contents (Elt Ideal)) (W1 : (⟨S512x256, .f32⟩ : BufTy).Contents (Elt Ideal)) (W2 : (⟨S256x256, .f32⟩ : BufTy).Contents (Elt Ideal))
  (Wl : (⟨S512x2, .f32⟩ : BufTy).Contents (Elt Ideal))

/-- The first host product is the product of `x` and `W1`. -/
theorem first_product : val_main_v4 (F := Ideal) x W1 = mm x W1 := by
  unfold val_main_v4
  exact dotGeneral_eq_mm dot_S50000x512_S512x256_S50000x256_1_0_0_1_n_n_wf none x W1

/-- The first neighbourhood sum. -/
theorem first_aggregate : val_main_v17 (F := Ideal) x e w W1 = aggregate (mm x W1) (tail e) (head e) w := by
  rw [← first_product]; rfl

/-- … clamped below at zero. -/
theorem clamped :
    val_main_v18 (F := Ideal) x e w W1 = clampBelow (aggregate (mm x W1) (tail e) (head e) w) := by
  rw [← first_aggregate]; rfl

/-- The second host product. -/
theorem second_product :
    val_main_v19 (F := Ideal) x e w W1 W2 = mm (clampBelow (aggregate (mm x W1) (tail e) (head e) w)) W2 := by
  unfold val_main_v19
  rw [clamped]
  exact dotGeneral_eq_mm dot_S50000x256_S256x256_S50000x256_1_0_0_1_n_n_wf none _ W2

/-- The second neighbourhood sum is the embedding. -/
theorem embedding_eq : val_main_v32 (F := Ideal) x e w W1 W2 = embedding x e w W1 W2 := by
  unfold embedding
  rw [← second_product]; rfl

/-- The rows of the embedding at the pairs' first endpoints. -/
theorem first_rows :
    val_main_v41 (F := Ideal) x e w p W1 W2 = rowsAt (embedding x e w W1 W2) (firstEnd p) := by
  rw [← embedding_eq]; rfl

/-- The rows of the embedding at the pairs' second endpoints. -/
theorem second_rows :
    val_main_v50 (F := Ideal) x e w p W1 W2 = rowsAt (embedding x e w W1 W2) (secondEnd p) := by
  rw [← embedding_eq]; rfl

/-- The reference's result: the two row blocks side by side against the whole decode matrix, which is the sum of
    each block against its own half of the matrix. -/
theorem reference_eq : val_main_v52 (F := Ideal) x e w p W1 W2 Wl = kernelValue x e w p W1 W2 Wl := by
  unfold val_main_v52 val_main_v51 kernelValue
  rw [first_rows, second_rows]
  refine (dotGeneral_eq_mm dot_S200000x512_S512x2_S200000x2_1_0_0_1_n_n_wf none _ Wl).trans ?_
  exact (Cert.LibSplitProduct.add_mm_bands_eq_mm_concat (k₁ := 256) (k₂ := 256) rfl _ _ Wl
    concatenates_S200000x256_S200000x256_S200000x512_d1
    Cert.KernelIdeal.Facts₀.slices_S512x2_S256x2_0_0 Cert.KernelIdeal.Facts₀.slices_S512x2_S256x2_256_0).symm

end Cert.ReferenceIdeal.RefValue

end
-- ==== Proof.lean ====
/-
  A two-layer graph convolution followed by a pair decoder, over 50000 nodes, 800000 weighted edges and 200000 node
  pairs, against its plain reference. Each layer multiplies the node features by a weight matrix and then adds, into
  every node, the weighted rows of its in-neighbours; a clamp at zero sits between the layers. The decoder gathers the
  two endpoint rows of every pair and applies a 512×2 matrix to the two rows set side by side.

  The kernel runs the four matrix products as pipelined regions over bands of 2000 rows (the two layer products, and
  one product per endpoint against the matching 256 rows of the decode matrix, added at the end); everything else is
  host operations, the same in both programs. At the extended reals each pipelined product leaves the whole product of
  its operands (a row of a product reads one row of the left operand, and the bands cover the rows), the host's product
  is that same sum, and the decoder's two forms agree because a sum over 512 positions is the sum over the first 256
  plus the sum over the last 256. Only regrouping of sums is used, so no entry has to be finite and the precondition is
  never opened.

  The three frame claims: the two kernels' by their launch certificates, the reference's by its run with the result
  dropped. The kernel's idealization rewrote no operation, so there is nothing to preserve. The value claim: the
  kernel's run ends with its result at `kernelValue` of the argument arrays (the whole run read at its end, then the
  walk back through the segment boundaries), and the reference's run ends at its composed term, which is the same
  function of arguments that agree.
-/
import proofs.«153874_j86234353369872_1_alg».proof.Defs
import proofs.«153874_j86234353369872_1_alg».proof.Proof.Gen.Kernel
import proofs.«153874_j86234353369872_1_alg».proof.Proof.Gen.Kernel.Frame
import proofs.«153874_j86234353369872_1_alg».proof.Proof.Gen.KernelIdeal
import proofs.«153874_j86234353369872_1_alg».proof.Proof.Gen.KernelIdeal.Frame
import proofs.«153874_j86234353369872_1_alg».proof.Proof.Gen.ReferenceIdeal
import proofs.«153874_j86234353369872_1_alg».proof.Proof.Gen.Pre_finite_inputs
import proofs.«153874_j86234353369872_1_alg».proof.Proof.Gen.ReferenceIdeal.Run
import proofs.«153874_j86234353369872_1_alg».proof.Proof.Gen.ReferenceIdeal.Read
import proofs.«153874_j86234353369872_1_alg».proof.Proof.WholeRun
import proofs.«153874_j86234353369872_1_alg».proof.Proof.Walk
import proofs.«153874_j86234353369872_1_alg».proof.Proof.RefValue
import Idealize.ShloMosaic.Adequacy
import Idealize.ShloMosaic.Init

noncomputable section

namespace Cert.Proof

open Idealize.ShloMosaic Idealize.SL.Sem

/-- The kernel as printed runs, and keeps its arguments. -/
theorem frame_kernel : Cert.frame_Kernel := fun m ρ _ => Cert.Kernel.Gen.frame m ρ

/-- The idealized kernel runs, and keeps its arguments. -/
theorem frame_kernelIdeal : Cert.frame_KernelIdeal := fun m ρ _ => Cert.KernelIdeal.Gen.frame m ρ

/-- The idealized reference runs, and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result array:
    `kernelValue` of the arguments. -/
theorem algebraic : Cert.algebraic_KernelIdeal_ReferenceIdeal := by
  intro m ρ m' ρ' _ hagree
  refine ⟨fun c => Cert.KernelIdeal.Stages.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Walk.result m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v52_eq, Cert.ReferenceIdeal.RefValue.reference_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
